-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S4095x2048 : Shape := ⟨2, ![4095, 2048]⟩
abbrev S4096 : Shape := ⟨1, ![4096]⟩
abbrev S4095x4096 : Shape := ⟨2, ![4095, 4096]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4095x2048 : S_.BroadcastsInDim S4095x2048 (![] : Fin 0 → Fin S4095x2048.rank)
  reducesTo_S4095x2048_S_d0_1 : S4095x2048.ReducesTo [0, 1] S_
  bcast_S_S4096 : S_.BroadcastsInDim S4096 (![] : Fin 0 → Fin S4096.rank)
  reducesTo_S4096_S_d0 : S4096.ReducesTo [0] S_
  bcast_S_S4095x4096 : S_.BroadcastsInDim S4095x4096 (![] : Fin 0 → Fin S4095x4096.rank)
  reducesTo_S4095x4096_S_d0_1 : S4095x4096.ReducesTo [0, 1] S_

variable [Facts]

def fn_part1 {F : FTy → Type} [FloatOps F] (main_v13 : IVec S_ 1) (main_v16 : IVec S4095x4096 1) : IVec S_ 1 :=
  let main_c_5 : IVec S_ 1 := constantI S_ 1 1#1
  let main_v17 : IVec S_ 1 := (fun x v => Host.reduce IntOp.andi x v reducesTo_S4095x4096_S_d0_1 h_S_) main_v16 main_c_5
  let main_v18 : IVec S_ 1 := andi main_v13 main_v17
  main_v18

def fn {F : FTy → Type} [FloatOps F] (main_arg0 : FVec F S8192x2048 .f32) (main_arg1 : FVec F S4095x2048 .f32) (main_arg2 : FVec F S4096 .f32) (main_arg3 : FVec F S4095x4096 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S4095x2048 .f32 := Host.absf main_arg1
  let main_cst_0 : FVec F S_ .f32 := constant S_ .f32 0x7F800000#32
  let main_v5 : FVec F S4095x2048 .f32 := broadcastInDim S4095x2048 ![] bcast_S_S4095x2048 main_cst_0
  let main_v6 : IVec S4095x2048 1 := cmpf .olt main_v4 main_v5
  let main_c_1 : IVec S_ 1 := constantI S_ 1 1#1
  let main_v7 : IVec S_ 1 := (fun x v => Host.reduce IntOp.andi x v reducesTo_S4095x2048_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4095x4096 .f32 := Host.absf main_arg3
  let main_cst_4 : FVec F S_ .f32 := constant S_ .f32 0x7F800000#32
  let main_v15 : FVec F S4095x4096 .f32 := broadcastInDim S4095x4096 ![] bcast_S_S4095x4096 main_cst_4
  let main_v16 : IVec S4095x4096 1 := cmpf .olt main_v14 main_v15
  fn_part1 (F := F) main_v13 main_v16
-- ==== Kernel.lean ====
abbrev S8192x2048 : Shape := ⟨2, ![8192, 2048]⟩
abbrev S4095x2048 : Shape := ⟨2, ![4095, 2048]⟩
abbrev S4096 : Shape := ⟨1, ![4096]⟩
abbrev S4095x4096 : Shape := ⟨2, ![4095, 4096]⟩
abbrev S2048x4095 : Shape := ⟨2, ![2048, 4095]⟩
abbrev S1x4096 : Shape := ⟨2, ![1, 4096]⟩
abbrev S2048x4096 : Shape := ⟨2, ![2048, 4096]⟩
abbrev S4095x512 : Shape := ⟨2, ![4095, 512]⟩
abbrev S2048x512 : Shape := ⟨2, ![2048, 512]⟩
abbrev S8192x4096 : Shape := ⟨2, ![8192, 4096]⟩
abbrev S256x2048 : Shape := ⟨2, ![256, 2048]⟩
abbrev S256x4096 : Shape := ⟨2, ![256, 4096]⟩

abbrev nBuf : Space → Nat
  | .hbm => 10
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S4095x2048, .f32⟩
  | .hbm, ⟨2, _⟩ => ⟨S4096, .f32⟩
  | .hbm, ⟨3, _⟩ => ⟨S4095x4096, .f32⟩
  | .hbm, ⟨4, _⟩ => ⟨S2048x4095, .f32⟩
  | .hbm, ⟨5, _⟩ => ⟨S2048x4095, .bf16⟩
  | .hbm, ⟨6, _⟩ => ⟨S4095x4096, .bf16⟩
  | .hbm, ⟨7, _⟩ => ⟨S1x4096, .f32⟩
  | .hbm, ⟨8, _⟩ => ⟨S2048x4096, .bf16⟩
  | .hbm, ⟨9, _⟩ => ⟨S8192x4096, .f32⟩
  | .local _ .vmem, ⟨0, _⟩ => ⟨S2048x4095, .bf16⟩
  | .local _ .vmem, ⟨1, _⟩ => ⟨S4095x512, .bf16⟩
  | .local _ .vmem, ⟨2, _⟩ => ⟨S4095x512, .bf16⟩
  | .local _ .vmem, ⟨3, _⟩ => ⟨S2048x512, .bf16⟩
  | .local _ .vmem, ⟨4, _⟩ => ⟨S2048x512, .bf16⟩
  | .local _ .vmem, ⟨5, _⟩ => ⟨S256x2048, .f32⟩
  | .local _ .vmem, ⟨6, _⟩ => ⟨S256x2048, .f32⟩
  | .local _ .vmem, ⟨7, _⟩ => ⟨S2048x4096, .bf16⟩
  | .local _ .vmem, ⟨8, _⟩ => ⟨S1x4096, .f32⟩
  | .local _ .vmem, ⟨9, _⟩ => ⟨S256x4096, .f32⟩
  | .local _ .vmem, ⟨10, _⟩ => ⟨S256x4096, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x4095 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4095x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S4095x2048_S2048x4095_1_0 : S4095x2048.Transposes [1, 0] S2048x4095
  bitsLt_bf16_f32 : FTy.bits .bf16 < FTy.bits .f32
  shapeCasts_S4096_S1x4096 : S4096.ShapeCasts S1x4096
  inb_S2048x4095_S2048x4095_0_0 : ∀ a, (![0, 0] : Fin 2 → Nat) a + S2048x4095.size a ≤ S2048x4095.size a
  h_S2048x4095 : 0 < S2048x4095.numel
  shapeCasts_S2048x4095_S2048x4095 : S2048x4095.ShapeCasts S2048x4095
  inb_S4095x512_S4095x512_0_0 : ∀ a, (![0, 0] : Fin 2 → Nat) a + S4095x512.size a ≤ S4095x512.size a
  h_S4095x512 : 0 < S4095x512.numel
  shapeCasts_S4095x512_S4095x512 : S4095x512.ShapeCasts S4095x512
  inb_S2048x512_S2048x512_0_0 : ∀ a, (![0, 0] : Fin 2 → Nat) a + S2048x512.size a ≤ S2048x512.size a
  h_S2048x512 : 0 < S2048x512.numel
  packedbf16_S2048x512_S2048x512_0_0 : (Rect.unit (s := S2048x512) ![0, 0] S2048x512.size inb_S2048x512_S2048x512_0_0).PackedRows (EltTy.packing .bf16)
  inb_S256x2048_S256x2048_0_0 : ∀ a, (![0, 0] : Fin 2 → Nat) a + S256x2048.size a ≤ S256x2048.size a
  h_S256x2048 : 0 < S256x2048.numel
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  dot_S2048x4095_S4095x512_S2048x512_1_0_0_1_n_n_wf : DotDims.WF S2048x4095 S4095x512 S2048x512 [1] [0] [0] [1] [] []
  dot_S256x2048_S2048x4096_S256x4096_1_0_0_1_n_n_wf : DotDims.WF S256x2048 S2048x4096 S256x4096 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x4095.size a ≤ S2048x4095.size a
  hwx0_0 : ∀ i : grid0.Coords, EltTy.bits .bf16 = 32 ∨ (Rect.block (s := S2048x4095) S2048x4095.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4095x512.size a ≤ S4095x4096.size a
  hwx0_1 : ∀ i : grid0.Coords, EltTy.bits .bf16 = 32 ∨ (Rect.block (s := S4095x4096) S4095x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x4096.size a
  hwx0_2 : ∀ i : grid0.Coords, EltTy.bits .bf16 = 32 ∨ (Rect.block (s := S2048x4096) S2048x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S8192x2048.size a
  hwx1_0 : ∀ i : grid1.Coords, EltTy.bits .f32 = 32 ∨ (Rect.block (s := S8192x2048) S256x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x4096.size a ≤ S2048x4096.size a
  hwx1_1 : ∀ i : grid1.Coords, EltTy.bits .bf16 = 32 ∨ (Rect.block (s := S2048x4096) S2048x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S8192x4096.size a
  hwx1_3 : ∀ i : grid1.Coords, EltTy.bits .f32 = 32 ∨ (Rect.block (s := S8192x4096) S256x4096.size (cc1_transform_3 i) (hinb1_3 i)).WholeWords (EltTy.packing .f32)

variable [Facts₀]

def dot_S2048x4095_S4095x512_S2048x512_1_0_0_1_n_n : DotDims S2048x4095 S4095x512 S2048x512 where
  lhsContracting := [1]
  rhsContracting := [0]
  lhsNonContracting := [0]
  rhsNonContracting := [1]
  lhsBatch := []
  rhsBatch := []
  wf := dot_S2048x4095_S4095x512_S2048x512_1_0_0_1_n_n_wf
def dot_S256x2048_S2048x4096_S256x4096_1_0_0_1_n_n : DotDims S256x2048 S2048x4096 S256x4096 where
  lhsContracting := [1]
  rhsContracting := [0]
  lhsNonContracting := [0]
  rhsNonContracting := [1]
  lhsBatch := []
  rhsBatch := []
  wf := dot_S256x2048_S2048x4096_S256x4096_1_0_0_1_n_n_wf

abbrev win0_0 : Pipeline.Window sig grid0 :=
  Pipeline.Window.ofSpec (Memref.whole main_v1) S2048x4095.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4095x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2048x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S256x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S4095x2048 : Shape := ⟨2, ![4095, 2048]⟩
abbrev S4096 : Shape := ⟨1, ![4096]⟩
abbrev S4095x4096 : Shape := ⟨2, ![4095, 4096]⟩
abbrev S2048x4096 : Shape := ⟨2, ![2048, 4096]⟩
abbrev S8192x4096 : Shape := ⟨2, ![8192, 4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4095x2048, .f32⟩
  | .hbm, ⟨2, _⟩ => ⟨S4096, .f32⟩
  | .hbm, ⟨3, _⟩ => ⟨S4095x4096, .f32⟩
  | .hbm, ⟨4, _⟩ => ⟨S2048x4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S4095x2048_S4095x4096_S2048x4096_0_0_1_1_n_n_wf : DotDims.WF S4095x2048 S4095x4096 S2048x4096 [0] [0] [1] [1] [] []
  dot_S8192x2048_S2048x4096_S8192x4096_1_0_0_1_n_n_wf : DotDims.WF S8192x2048 S2048x4096 S8192x4096 [1] [0] [0] [1] [] []

variable [Facts₀]

def dot_S4095x2048_S4095x4096_S2048x4096_0_0_1_1_n_n : DotDims S4095x2048 S4095x4096 S2048x4096 where
  lhsContracting := [0]
  rhsContracting := [0]
  lhsNonContracting := [1]
  rhsNonContracting := [1]
  lhsBatch := []
  rhsBatch := []
  wf := dot_S4095x2048_S4095x4096_S2048x4096_0_0_1_1_n_n_wf
def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf

class Facts : Prop extends Facts₀ where

variable [Facts]
-- ==== Proof.LogitSpec.lean ====
/-
  What both programs compute, as functions of the four argument arrays over the extended reals.

  The tree has 4095 internal nodes and 4096 leaves. Leaf n's logit adds, over the internal nodes m,
  sign(m, n) times the inner product of the token with node m's normal vector, and then the leaf's bias.
  Collecting the nodes first gives one weight matrix
      W[d, n] = Σ_m normals[m, d] · signs[m, n]                        (`weight`)
  and then, for token t,
      out[t, n] = (Σ_d x[t, d] · W[d, n]) + bias[n]                     (`logits`).
  Each sum runs over the contracted coordinate alone, in the commutative monoid of the extended reals
  under addition. Both programs form these same two sums and the same final addition, so no law that
  would need finite entries (distributivity, cancellation) is used anywhere.
-/
import Idealize.ShloMosaic.PureOps.Ideal
import Idealize.ShloMosaic.Lib.ValueIdx

noncomputable section

namespace Cert.TreeLogits

open Idealize.ShloMosaic Idealize.ShloMosaic.ValueIdx

/-- The combined weight: entry (d, n) sums, over the internal nodes m, node m's normal at feature d times
    the sign with which node m enters leaf n. -/
def weight (normals : (⟨2, ![4095, 2048]⟩ : Shape).Idx → EReal) (signs : (⟨2, ![4095, 4096]⟩ : Shape).Idx → EReal) :
    (⟨2, ![2048, 4096]⟩ : Shape).Idx → EReal :=
  fun j => ∑ m : Fin 4095, normals (ix2 m (j 0)) * signs (ix2 m (j 1))

/-- The logits: entry (t, n) is token t's inner product with column n of the weight, plus leaf n's bias. -/
def logits (x : (⟨2, ![8192, 2048]⟩ : Shape).Idx → EReal) (w : (⟨2, ![2048, 4096]⟩ : Shape).Idx → EReal)
    (bias : (⟨1, ![4096]⟩ : Shape).Idx → EReal) : (⟨2, ![8192, 4096]⟩ : Shape).Idx → EReal :=
  fun i => (∑ d : Fin 2048, x (ix2 (i 0) d) * w (ix2 d (i 1))) + bias (ix1 (i 1))

theorem weight_apply (normals : (⟨2, ![4095, 2048]⟩ : Shape).Idx → EReal) (signs : (⟨2, ![4095, 4096]⟩ : Shape).Idx → EReal)
    (d : Fin 2048) (n : Fin 4096) :
    weight normals signs (ix2 d n) = ∑ m : Fin 4095, normals (ix2 m d) * signs (ix2 m n) := rfl

theorem logits_apply (x : (⟨2, ![8192, 2048]⟩ : Shape).Idx → EReal) (w : (⟨2, ![2048, 4096]⟩ : Shape).Idx → EReal)
    (bias : (⟨1, ![4096]⟩ : Shape).Idx → EReal) (t : Fin 8192) (n : Fin 4096) :
    logits x w bias (ix2 t n) = (∑ d : Fin 2048, x (ix2 t d) * w (ix2 d n)) + bias (ix1 n) := rfl

end Cert.TreeLogits

end
-- ==== Proof.ReferenceSide.lean ====
/-
  The reference's result is the specification.

  The reference forms the weight by one contraction over the node axis of the two node-indexed arrays,
  then contracts the tokens' feature axis against it, and adds the bias broadcast over the tokens. Read at
  an index (t, n), its left and right operand indices are exactly the specification's: (m, d), (m, n) for the
  weight, (t, d), (d, n) for the logits, and (n) for the bias.
-/
import proofs.«172962_j13554916786432_2_alg».proof.Proof.Gen.ReferenceIdeal.Read
import proofs.«172962_j13554916786432_2_alg».proof.Proof.LogitSpec

noncomputable section

namespace Cert.ReferenceIdeal.RefValue

open Cert.ReferenceIdeal Cert.ReferenceIdeal.Read Idealize.ShloMosaic Idealize.ShloMosaic.ValueIdx Cert.TreeLogits

theorem weight_left (i : S2048x4096.Idx) (k : Fin 4095) : lidx_main_v0 i k = ix2 k (i 0) :=
  funext fun a => by match a with | ⟨0, _⟩ => rfl | ⟨1, _⟩ => rfl
theorem weight_right (i : S2048x4096.Idx) (k : Fin 4095) : ridx_main_v0 i k = ix2 k (i 1) :=
  funext fun a => by match a with | ⟨0, _⟩ => rfl | ⟨1, _⟩ => rfl
theorem logit_left (i : S8192x4096.Idx) (k : Fin 2048) : lidx_main_v1 i k = ix2 (i 0) k :=
  funext fun a => by match a with | ⟨0, _⟩ => rfl | ⟨1, _⟩ => rfl
theorem logit_right (i : S8192x4096.Idx) (k : Fin 2048) : ridx_main_v1 i k = ix2 k (i 1) :=
  funext fun a => by match a with | ⟨0, _⟩ => rfl | ⟨1, _⟩ => rfl
theorem bias_at (i : S8192x4096.Idx) : idx_main_v2 (idx_main_v3 i) = ix1 (i 1) :=
  funext fun a => by match a with | ⟨0, _⟩ => rfl

/-- The reference's first contraction is the combined weight. -/
theorem weight_eq (x1 : (⟨S4095x2048, .f32⟩ : BufTy).Contents (Elt Ideal)) (x3 : (⟨S4095x4096, .f32⟩ : BufTy).Contents (Elt Ideal)) :
    val_main_v0 (F := Ideal) x1 x3 = weight x1 x3 := by
  funext j
  rw [val_main_v0_apply]
  simp only [weight_left, weight_right]
  rfl

/-- The reference's result is the logits of the specification. -/
theorem reference_eq (x0 : (⟨S8192x2048, .f32⟩ : BufTy).Contents (Elt Ideal)) (x1 : (⟨S4095x2048, .f32⟩ : BufTy).Contents (Elt Ideal))
    (x2 : (⟨S4096, .f32⟩ : BufTy).Contents (Elt Ideal)) (x3 : (⟨S4095x4096, .f32⟩ : BufTy).Contents (Elt Ideal)) :
    val_main_v4 (F := Ideal) x0 x1 x2 x3 = logits x0 (weight x1 x3) x2 := by
  funext i
  rw [val_main_v4_apply, val_main_v1_apply, val_main_v3_apply, val_main_v2_apply, weight_eq]
  simp only [logit_left, logit_right, bias_at]
  rfl

end Cert.ReferenceIdeal.RefValue

end
-- ==== Proof.NamedRun.lean ====
/-
  The idealized kernel's run with its result array named.

  The program is three segments: four host operations, the weight region, the logit region. The buffer
  contents at the segment boundaries are a fold from the launch memory; after the last region every
  unscoped buffer holds that fold's last value. Reading the final memory at the result buffer, and not
  only at the four arguments, gives the result array as what the logit region's write-backs leave in it.
-/
import proofs.«172962_j13554916786432_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at what the logit
    region's write-backs leave in its output array and the four arguments as launched. -/
theorem run_named : θ_run defs (onTc (τ := τ) (main (F := F))) ⟨m, fun _ => 0, ρ⟩ (fun r => ∀ c : Dev nD,
      r.2.mem ((c.tc : Thread nD τ).loc main_v5) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v5 (by decide))).trans (W3_arr m ρ c 3),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.Result

end
-- ==== Proof.HostStage.lean ====
/-
  What the four host operations before the first region leave, at the ideal instance.

  They transpose the normals to [2048, 4095] (entry (d, k) is the normals' entry (k, d)), change the float
  format of the transposed normals and of the signs (the identity on the extended reals), and view the
  [4096] bias as a [1, 4096] row (entry (0, n) is the bias's entry n: same row-major position).
-/
import proofs.«172962_j13554916786432_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Entry

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- The first region's left operand array: the normals transposed. -/
theorem normalsT_eq (c : Dev nD) :
    (V1 m ρ c main_v1 : S2048x4095.Idx → EReal)
      = transpose S2048x4095 [1, 0] (m ((c : Thread nD τ).loc main_arg1) : S4095x2048.Idx → EReal) transposes_S4095x2048_S2048x4095_1_0 := by
  show StableHlo.after hostOps0 (W0 m ρ c) (Proc.devRef .tc main_v1) = _
  dsimp only [hostOps0]
  after_results
  rfl

/-- Its entry (d, k) is the normals' entry (k, d). -/
theorem normalsT_apply (c : Dev nD) (d : Fin 2048) (k : Fin 4095) :
    (V1 m ρ c main_v1 : S2048x4095.Idx → EReal) (ix2 d k) = (m ((c : Thread nD τ).loc main_arg1) : S4095x2048.Idx → EReal) (ix2 k d) := by
  rw [normalsT_eq]
  exact transpose_apply [1, 0] _ transposes_S4095x2048_S2048x4095_1_0 (ix2 d k) (ix2 k d) (fun b => by
    match b with
    | ⟨0, _⟩ => rfl
    | ⟨1, _⟩ => rfl)

/-- The first region's right operand array: the signs. -/
theorem signs_eq (c : Dev nD) :
    (V1 m ρ c main_v2 : S4095x4096.Idx → EReal) = (m ((c : Thread nD τ).loc main_arg3) : S4095x4096.Idx → EReal) := by
  show StableHlo.after hostOps0 (W0 m ρ c) (Proc.devRef .tc main_v2) = _
  dsimp only [hostOps0]
  after_results
  rfl

/-- The bias row: the bias viewed [1, 4096]. -/
theorem biasRow_eq (c : Dev nD) :
    (V1 m ρ c main_v3 : S1x4096.Idx → EReal)
      = shapeCast S1x4096 (m ((c : Thread nD τ).loc main_arg2) : S4096.Idx → EReal) shapeCasts_S4096_S1x4096 := by
  show StableHlo.after hostOps0 (W0 m ρ c) (Proc.devRef .tc main_v3) = _
  dsimp only [hostOps0]
  after_results
  rfl

/-- Its entry (0, n) is the bias's entry n. -/
theorem biasRow_apply (c : Dev nD) (n : Fin 4096) :
    (V1 m ρ c main_v3 : S1x4096.Idx → EReal) (ix2 (0 : Fin 1) n) = (m ((c : Thread nD τ).loc main_arg2) : S4096.Idx → EReal) (ix1 n) := by
  rw [biasRow_eq]
  refine shapeCast_apply _ shapeCasts_S4096_S1x4096 (ix2 (0 : Fin 1) n) (ix1 n) ?_
  rw [Shape.rowMajor_val_one, Shape.rowMajor_val_two]
  show n.val = 0 * 4096 + n.val
  omega

end Cert.KernelIdeal.Entry

end
-- ==== Proof.BodySums.lean ====
/-
  The two kernel bodies' arithmetic, read at one entry of the stored block, at the ideal instance.

  The first body multiplies the whole [2048, 4095] left block by a [4095, 512] right block into a zero
  accumulator and stores the product: entry (p, q) is Σ_k a[p, k] · b[k, q] over the 4095 contracted
  positions (the change of float format before the store is the identity on the extended reals, and so is
  a shape cast to the same shape).

  The second body multiplies a [256, 2048] block of tokens by the whole [2048, 4096] weight into a zero
  accumulator and adds the [1, 4096] bias row broadcast down the 256 rows: entry (p, q) is
  (Σ_k a[p, k] · w[k, q]) + bias[0, q].

  In both, the contraction index of the product's dimension numbers is a one-coordinate index; the sum
  over it is re-indexed by that coordinate.
-/
import proofs.«172962_j13554916786432_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## The weight product: [2048, 4095] × [4095, 512] -/

theorem wdot_lhs_row (i : S2048x512.Idx) (q : dot_S2048x4095_S4095x512_S2048x512_1_0_0_1_n_n.contr.Idx) :
    (dot_S2048x4095_S4095x512_S2048x512_1_0_0_1_n_n.lhsIdx i q 0).val = (i 0).val := by
  unfold DotDims.lhsIdx
  rw [dif_neg (show ¬(0 : Fin S2048x4095.rank) ∈ dot_S2048x4095_S4095x512_S2048x512_1_0_0_1_n_n.lhsBatch by decide), dif_pos (show (0 : Fin S2048x4095.rank) ∈ dot_S2048x4095_S4095x512_S2048x512_1_0_0_1_n_n.lhsNonContracting by decide)]
  rfl
theorem wdot_lhs_contr (i : S2048x512.Idx) (q : dot_S2048x4095_S4095x512_S2048x512_1_0_0_1_n_n.contr.Idx) :
    (dot_S2048x4095_S4095x512_S2048x512_1_0_0_1_n_n.lhsIdx i q 1).val = (q ⟨0, by decide⟩).val :=
  dot_S2048x4095_S4095x512_S2048x512_1_0_0_1_n_n.lhsIdx_val_of_single rfl i q
theorem wdot_rhs_contr (i : S2048x512.Idx) (q : dot_S2048x4095_S4095x512_S2048x512_1_0_0_1_n_n.contr.Idx) :
    (dot_S2048x4095_S4095x512_S2048x512_1_0_0_1_n_n.rhsIdx i q 0).val = (q ⟨0, by decide⟩).val :=
  dot_S2048x4095_S4095x512_S2048x512_1_0_0_1_n_n.rhsIdx_val_of_single rfl i q
theorem wdot_rhs_col (i : S2048x512.Idx) (q : dot_S2048x4095_S4095x512_S2048x512_1_0_0_1_n_n.contr.Idx) :
    (dot_S2048x4095_S4095x512_S2048x512_1_0_0_1_n_n.rhsIdx i q 1).val = (i 1).val := by
  unfold DotDims.rhsIdx
  rw [dif_neg (show ¬(1 : Fin S4095x512.rank) ∈ dot_S2048x4095_S4095x512_S2048x512_1_0_0_1_n_n.rhsBatch by decide), dif_pos (show (1 : Fin S4095x512.rank) ∈ dot_S2048x4095_S4095x512_S2048x512_1_0_0_1_n_n.rhsNonContracting by decide)]
  rfl

/-- Entry (p, q) of the stored weight block: the row p of the left block against column q of the right block. -/
theorem weight_block_apply (a : Vec Ideal S2048x4095 .bf16) (b : Vec Ideal S4095x512 .bf16) (p : Fin 2048) (q : Fin 512) :
    k0_pay1 (F := Ideal) a b (ix2 p q) = ∑ k : Fin 4095, a (ix2 p k) * b (ix2 k q) := by
  unfold k0_pay1
  simp only [shapeCast_self]
  show FloatOps.matmul (F := Ideal) (φ₁ := .bf16) (φ₂ := .bf16) dot_S2048x4095_S4095x512_S2048x512_1_0_0_1_n_n none a b (constant (F := Ideal) S2048x512 .f32 0x00000000#32) (ix2 p q) = _
  rw [Ideal.matmul_constant_zero_apply, ← Equiv.sum_comp (contrEquiv1 dot_S2048x4095_S4095x512_S2048x512_1_0_0_1_n_n 4095 rfl rfl).symm]
  refine Finset.sum_congr rfl fun k _ => ?_
  have hk := contrEquiv1_symm_val dot_S2048x4095_S4095x512_S2048x512_1_0_0_1_n_n 4095 rfl rfl k
  have el : dot_S2048x4095_S4095x512_S2048x512_1_0_0_1_n_n.lhsIdx (ix2 p q) ((contrEquiv1 dot_S2048x4095_S4095x512_S2048x512_1_0_0_1_n_n 4095 rfl rfl).symm k) = ix2 p k := funext fun d => Fin.ext (by
    match d with
    | ⟨0, _⟩ => exact wdot_lhs_row _ _
    | ⟨1, _⟩ => exact (wdot_lhs_contr _ _).trans hk)
  have er : dot_S2048x4095_S4095x512_S2048x512_1_0_0_1_n_n.rhsIdx (ix2 p q) ((contrEquiv1 dot_S2048x4095_S4095x512_S2048x512_1_0_0_1_n_n 4095 rfl rfl).symm k) = ix2 k q := funext fun d => Fin.ext (by
    match d with
    | ⟨0, _⟩ => exact (wdot_rhs_contr _ _).trans hk
    | ⟨1, _⟩ => exact wdot_rhs_col _ _)
  rw [el, er]

/-! ## The token product: [256, 2048] × [2048, 4096], plus the bias row -/

theorem xdot_lhs_row (i : S256x4096.Idx) (q : dot_S256x2048_S2048x4096_S256x4096_1_0_0_1_n_n.contr.Idx) :
    (dot_S256x2048_S2048x4096_S256x4096_1_0_0_1_n_n.lhsIdx i q 0).val = (i 0).val := by
  unfold DotDims.lhsIdx
  rw [dif_neg (show ¬(0 : Fin S256x2048.rank) ∈ dot_S256x2048_S2048x4096_S256x4096_1_0_0_1_n_n.lhsBatch by decide), dif_pos (show (0 : Fin S256x2048.rank) ∈ dot_S256x2048_S2048x4096_S256x4096_1_0_0_1_n_n.lhsNonContracting by decide)]
  rfl
theorem xdot_lhs_contr (i : S256x4096.Idx) (q : dot_S256x2048_S2048x4096_S256x4096_1_0_0_1_n_n.contr.Idx) :
    (dot_S256x2048_S2048x4096_S256x4096_1_0_0_1_n_n.lhsIdx i q 1).val = (q ⟨0, by decide⟩).val :=
  dot_S256x2048_S2048x4096_S256x4096_1_0_0_1_n_n.lhsIdx_val_of_single rfl i q
theorem xdot_rhs_contr (i : S256x4096.Idx) (q : dot_S256x2048_S2048x4096_S256x4096_1_0_0_1_n_n.contr.Idx) :
    (dot_S256x2048_S2048x4096_S256x4096_1_0_0_1_n_n.rhsIdx i q 0).val = (q ⟨0, by decide⟩).val :=
  dot_S256x2048_S2048x4096_S256x4096_1_0_0_1_n_n.rhsIdx_val_of_single rfl i q
theorem xdot_rhs_col (i : S256x4096.Idx) (q : dot_S256x2048_S2048x4096_S256x4096_1_0_0_1_n_n.contr.Idx) :
    (dot_S256x2048_S2048x4096_S256x4096_1_0_0_1_n_n.rhsIdx i q 1).val = (i 1).val := by
  unfold DotDims.rhsIdx
  rw [dif_neg (show ¬(1 : Fin S2048x4096.rank) ∈ dot_S256x2048_S2048x4096_S256x4096_1_0_0_1_n_n.rhsBatch by decide), dif_pos (show (1 : Fin S2048x4096.rank) ∈ dot_S256x2048_S2048x4096_S256x4096_1_0_0_1_n_n.rhsNonContracting by decide)]
  rfl

/-- The [1, 4096] bias row broadcast down 256 rows, read at (p, q), is the row's entry (0, q). -/
theorem bias_rows_apply (r : FVec Ideal S1x4096 .f32) (p : Fin 256) (q : Fin 4096) :
    broadcastTo S256x4096 r broadcasts_S1x4096_S256x4096 (ix2 p q) = r (ix2 (0 : Fin 1) q) :=
  broadcastTo_apply r broadcasts_S1x4096_S256x4096 (ix2 p q) (ix2 (0 : Fin 1) q) (fun d => by
    match d with
    | ⟨0, _⟩ => show (0 : Nat) = if (1 : Nat) = 1 then 0 else _; rw [if_pos rfl]
    | ⟨1, _⟩ => show q.val = if (4096 : Nat) = 1 then 0 else q.val; rw [if_neg (by decide)])

/-- Entry (p, q) of the stored logit block: token row p against weight column q, plus the bias at q. -/
theorem logit_block_apply (a : Vec Ideal S256x2048 .f32) (w : Vec Ideal S2048x4096 .bf16) (r : Vec Ideal S1x4096 .f32)
    (p : Fin 256) (q : Fin 4096) :
    k1_pay1 (F := Ideal) a w r (ix2 p q) = (∑ k : Fin 2048, a (ix2 p k) * w (ix2 k q)) + r (ix2 (0 : Fin 1) q) := by
  unfold k1_pay1
  simp only [shapeCast_self]
  show FloatOps.matmul (F := Ideal) (φ₁ := .bf16) (φ₂ := .bf16) dot_S256x2048_S2048x4096_S256x4096_1_0_0_1_n_n none a w (constant (F := Ideal) S256x4096 .f32 0x00000000#32) (ix2 p q)
      + broadcastTo S256x4096 (r : FVec Ideal S1x4096 .f32) broadcasts_S1x4096_S256x4096 (ix2 p q) = _
  rw [bias_rows_apply, Ideal.matmul_constant_zero_apply, ← Equiv.sum_comp (contrEquiv1 dot_S256x2048_S2048x4096_S256x4096_1_0_0_1_n_n 2048 rfl rfl).symm]
  refine congrArg (· + r (ix2 (0 : Fin 1) q)) (Finset.sum_congr rfl fun k _ => ?_)
  have hk := contrEquiv1_symm_val dot_S256x2048_S2048x4096_S256x4096_1_0_0_1_n_n 2048 rfl rfl k
  have el : dot_S256x2048_S2048x4096_S256x4096_1_0_0_1_n_n.lhsIdx (ix2 p q) ((contrEquiv1 dot_S256x2048_S2048x4096_S256x4096_1_0_0_1_n_n 2048 rfl rfl).symm k) = ix2 p k := funext fun d => Fin.ext (by
    match d with
    | ⟨0, _⟩ => exact xdot_lhs_row _ _
    | ⟨1, _⟩ => exact (xdot_lhs_contr _ _).trans hk)
  have er : dot_S256x2048_S2048x4096_S256x4096_1_0_0_1_n_n.rhsIdx (ix2 p q) ((contrEquiv1 dot_S256x2048_S2048x4096_S256x4096_1_0_0_1_n_n 2048 rfl rfl).symm k) = ix2 k q := funext fun d => Fin.ext (by
    match d with
    | ⟨0, _⟩ => exact (xdot_rhs_contr _ _).trans hk
    | ⟨1, _⟩ => exact xdot_rhs_col _ _)
  rw [el, er]

end Cert.KernelIdeal.Body

end
-- ==== Proof.WeightArray.lean ====
/-
  The weight region: from the eight column blocks to the whole [2048, 4096] array.

  The grid has eight points. At point t the body sees the whole left operand array (block index (0, 0)) and
  columns 512·t … 512·t + 511 of the right operand array (block index (0, t)), and its result is written
  back to the same columns of the output (block index (0, t)). Entry (p, q) of what point t writes is
  Σ_k left[p, k] · right[k, 512·t + q], which is entry (p, 512·t + q) of the one array
      product[d, n] = Σ_k left[d, k] · right[k, n].
  Column n lies in the block of point n / 512, so the eight blocks cover the array, and the array ends
  holding `product` of the two operand arrays as the region found them.
-/
import proofs.«172962_j13554916786432_2_alg».proof.Proof.Gen.KernelIdeal.Frame
import proofs.«172962_j13554916786432_2_alg».proof.Proof.BodySums
import Idealize.ShloMosaic.Lib.Pipeline.Value
import Idealize.ShloMosaic.Lib.ValueIdx

noncomputable section

namespace Cert.KernelIdeal.WeightRegion

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: the left operand always at (0, 0), the right operand and the output at (0, t). -/
theorem block_index : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

theorem point_lt (t : Fin cfg0.N) : t.val < 8 := Nat.lt_of_lt_of_eq t.isLt N_0

/-- The product of a [2048, 4095] array with a [4095, 4096] array. -/
def product (left : S2048x4095.Idx → EReal) (right : S4095x4096.Idx → EReal) : S2048x4096.Idx → EReal := fun j =>
  ∑ k : Fin 4095, left (ix2 (j 0) k) * right (ix2 k (j 1))

omit V in
theorem product_apply (left : S2048x4095.Idx → EReal) (right : S4095x4096.Idx → EReal) (j : S2048x4096.Idx) (p : Fin 2048) (n : Fin 4096)
    (h0 : (j 0).val = p.val) (h1 : (j 1).val = n.val) :
    product left right j = ∑ k : Fin 4095, left (ix2 p k) * right (ix2 k n) := by
  have e : j = ix2 p n := funext fun a => Fin.ext (by
    match a with
    | ⟨0, _⟩ => exact h0
    | ⟨1, _⟩ => exact h1)
  rw [e]
  rfl

/-- The left block at any point is the whole left operand array. -/
theorem left_block_apply (c : Dev nD) (t : Fin cfg0.N) (p : Fin 2048) (k : Fin 4095) :
    (iblk0 V c 0 t : Vec Ideal S2048x4095 .bf16) (ix2 p k) = (V c main_v1 : S2048x4095.Idx → EReal) (ix2 p k) := by
  obtain ⟨e0, e1, -⟩ := block_index t
  unfold iblk0
  rw [View.read_apply]
  show (V c main_v1 : S2048x4095.Idx → EReal) _ = (V c main_v1 : S2048x4095.Idx → EReal) _
  congr 1
  funext a
  apply Fin.ext
  match a with
  | ⟨0, _⟩ => show win0_0.index t (0 : Fin 2) * 2048 + 1 * p.val = p.val; rw [e0]; omega
  | ⟨1, _⟩ => show win0_0.index t (1 : Fin 2) * 4095 + 1 * k.val = k.val; rw [e1]; omega

/-- The right block at point t is columns 512·t … of the right operand array. -/
theorem right_block_apply (c : Dev nD) (t : Fin cfg0.N) (k : Fin 4095) (q : Fin 512) (n : Fin 4096) (hn : n.val = 512 * t.val + q.val) :
    (iblk0 V c 1 t : Vec Ideal S4095x512 .bf16) (ix2 k q) = (V c main_v2 : S4095x4096.Idx → EReal) (ix2 k n) := by
  obtain ⟨-, -, e0, e1, -⟩ := block_index t
  unfold iblk0
  rw [View.read_apply]
  show (V c main_v2 : S4095x4096.Idx → EReal) _ = (V c main_v2 : S4095x4096.Idx → EReal) _
  congr 1
  funext a
  apply Fin.ext
  match a with
  | ⟨0, _⟩ => show win0_1.index t (0 : Fin 2) * 4095 + 1 * k.val = k.val; rw [e0]; omega
  | ⟨1, _⟩ => show win0_1.index t (1 : Fin 2) * 512 + 1 * q.val = n.val; rw [e1, hn]; omega

/-- Where entry (p, q) of the output block at point t sits in the output array: row p, column 512·t + q. -/
theorem out_row (t : Fin cfg0.N) (p : Fin 2048) (q : Fin 512) :
    ((((cfg0.win 2).blk t).view.emb (ix2 p q) : S2048x4096.Idx) 0).val = p.val := by
  obtain ⟨-, -, -, -, e0, -⟩ := block_index t
  show win0_2.index t (0 : Fin 2) * 2048 + 1 * p.val = p.val
  rw [e0]; omega
theorem out_col (t : Fin cfg0.N) (p : Fin 2048) (q : Fin 512) :
    ((((cfg0.win 2).blk t).view.emb (ix2 p q) : S2048x4096.Idx) 1).val = 512 * t.val + q.val := by
  obtain ⟨-, -, -, -, -, e1⟩ := block_index t
  show win0_2.index t (1 : Fin 2) * 512 + 1 * q.val = 512 * t.val + q.val
  rw [e1]; omega

/-- What point t writes back is block t of `product`. -/
theorem flushed_eq (c : Dev nD) (t : Fin cfg0.N) :
    (dat0 V c).flushed 2 t = ((cfg0.win 2).blk t).view.read (Elt Ideal) (product (V c main_v1) (V c main_v2)) := by
  show (cfg0.win 2).cut (grid0.coords t) ((dat0 V c).after 2 t) = _
  rw [after0_2]
  unfold out0_2
  rw [View.canon_unit_zero zero_offsets]
  simp only [View.ld_unit_zero (S := S2048x4095) zero_offsets, View.ld_unit_zero (S := S4095x512) zero_offsets]
  refine funext fun (y : S2048x512.Idx) => ?_
  show k0_pay1 (F := Ideal) (iblk0 V c 0 t) (iblk0 V c 1 t) y = product (V c main_v1) (V c main_v2) (((cfg0.win 2).blk t).view.emb y)
  rw [eq_ix2 y]
  have ht := point_lt t
  have hq : (y 1).val < 512 := (y 1).isLt
  refine (Body.weight_block_apply (iblk0 V c 0 t) (iblk0 V c 1 t) (y 0) (y 1)).trans ?_
  refine ((product_apply (V c main_v1) (V c main_v2) _ (y 0) ⟨512 * t.val + (y 1).val, by omega⟩ (out_row t (y 0) (y 1)) (out_col t (y 0) (y 1))).trans ?_).symm
  refine Finset.sum_congr rfl fun k _ => ?_
  exact (congrArg₂ (fun (a b : EReal) => a * b) (left_block_apply V c t (y 0) k) (right_block_apply V c t k (y 1) ⟨512 * t.val + (y 1).val, by omega⟩ rfl)).symm

/-- An index of the output array is in point t's block iff each coordinate is in the block's range on its axis. -/
theorem mem_block (t : Fin cfg0.N) (i : S2048x4096.Idx) :
    i ∈ ((cfg0.win 2).blk t).view.set ↔ ∀ a : Fin 2, win0_2.index t a * S2048x512.size a ≤ (i a).val ∧ (i a).val < win0_2.index t a * S2048x512.size a + S2048x512.size a := by
  show i ∈ ((View.whole main_v4).slice (win0_2.rect t)).set ↔ _
  rw [View.set_slice_whole, Rect.mem_set_unit]
  exact Iff.rfl

/-- Column n is in the block of point n / 512. -/
theorem cover (i : S2048x4096.Idx) : ∃ t : Fin cfg0.N, (cfg0.win 2).flush t = true ∧ i ∈ ((cfg0.win 2).blk t).view.set := by
  have hi0 : (i 0).val < 2048 := (i 0).isLt
  have hi1 : (i 1).val < 4096 := (i 1).isLt
  obtain ⟨t, ht⟩ : ∃ t : Fin cfg0.N, t.val = (i 1).val / 512 := ⟨⟨(i 1).val / 512, by rw [show cfg0.N = 8 from N_0]; omega⟩, rfl⟩
  obtain ⟨-, -, -, -, e0, e1⟩ := block_index t
  refine ⟨t, flush0_2 t, ?_⟩
  rw [mem_block]
  intro a
  match a with
  | ⟨0, _⟩ => show win0_2.index t (0 : Fin 2) * 2048 ≤ (i 0).val ∧ (i 0).val < win0_2.index t (0 : Fin 2) * 2048 + 2048; rw [e0]; omega
  | ⟨1, _⟩ => show win0_2.index t (1 : Fin 2) * 512 ≤ (i 1).val ∧ (i 1).val < win0_2.index t (1 : Fin 2) * 512 + 512; rw [e1, ht]; omega

/-- The output array after the region is `product` of the operand arrays as the region found them. -/
theorem array_eq (c : Dev nD) : (dat0 V c).arrAt 2 cfg0.N = product (V c main_v1) (V c main_v2) :=
  (dat0 V c).arrAt_eq_of_cover 2 (product (V c main_v1) (V c main_v2)) (fun t _ => flushed_eq V c t) cover

end Cert.KernelIdeal.WeightRegion

end
-- ==== Proof.LogitArray.lean ====
/-
  The logit region: from the 32 row blocks to the whole [8192, 4096] array.

  The grid has 32 points. At point t the body sees rows 256·t … 256·t + 255 of the token array (block index
  (t, 0)), the whole weight array and the whole bias row (block index (0, 0) both), and its result is
  written back to the same rows of the output (block index (t, 0)). Entry (p, q) of what point t writes is
  (Σ_k tokens[256·t + p, k] · weight[k, q]) + biasRow[0, q], which is entry (256·t + p, q) of the one array
      scores[r, n] = (Σ_k tokens[r, k] · weight[k, n]) + biasRow[0, n].
  Row r lies in the block of point r / 256, so the 32 blocks cover the array, and the array ends holding
  `scores` of the three operand arrays as the region found them.
-/
import proofs.«172962_j13554916786432_2_alg».proof.Proof.Gen.KernelIdeal.Frame
import proofs.«172962_j13554916786432_2_alg».proof.Proof.BodySums
import Idealize.ShloMosaic.Lib.Pipeline.Value
import Idealize.ShloMosaic.Lib.ValueIdx

noncomputable section

namespace Cert.KernelIdeal.LogitRegion

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: the tokens and the output at (t, 0), the weight and the bias row at (0, 0). -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem point_lt (t : Fin cfg1.N) : t.val < 32 := Nat.lt_of_lt_of_eq t.isLt N_1

/-- The scores of a [8192, 2048] token array against a [2048, 4096] weight array, plus a [1, 4096] bias row. -/
def scores (tokens : S8192x2048.Idx → EReal) (weight : S2048x4096.Idx → EReal) (biasRow : S1x4096.Idx → EReal) : S8192x4096.Idx → EReal := fun j =>
  (∑ k : Fin 2048, tokens (ix2 (j 0) k) * weight (ix2 k (j 1))) + biasRow (ix2 (0 : Fin 1) (j 1))

omit V in
theorem scores_apply (tokens : S8192x2048.Idx → EReal) (weight : S2048x4096.Idx → EReal) (biasRow : S1x4096.Idx → EReal)
    (j : S8192x4096.Idx) (r : Fin 8192) (n : Fin 4096) (h0 : (j 0).val = r.val) (h1 : (j 1).val = n.val) :
    scores tokens weight biasRow j = (∑ k : Fin 2048, tokens (ix2 r k) * weight (ix2 k n)) + biasRow (ix2 (0 : Fin 1) n) := by
  have e : j = ix2 r n := funext fun a => Fin.ext (by
    match a with
    | ⟨0, _⟩ => exact h0
    | ⟨1, _⟩ => exact h1)
  rw [e]
  rfl

/-- The token block at point t is rows 256·t … of the token array. -/
theorem token_block_apply (c : Dev nD) (t : Fin cfg1.N) (p : Fin 256) (k : Fin 2048) (r : Fin 8192) (hr : r.val = 256 * t.val + p.val) :
    (iblk1 V c 0 t : Vec Ideal S256x2048 .f32) (ix2 p k) = (V c main_arg0 : S8192x2048.Idx → EReal) (ix2 r k) := by
  obtain ⟨e0, e1, -⟩ := block_index t
  unfold iblk1
  rw [View.read_apply]
  show (V c main_arg0 : S8192x2048.Idx → EReal) _ = (V c main_arg0 : S8192x2048.Idx → EReal) _
  congr 1
  funext a
  apply Fin.ext
  match a with
  | ⟨0, _⟩ => show win1_0.index t (0 : Fin 2) * 256 + 1 * p.val = r.val; rw [e0, hr]; omega
  | ⟨1, _⟩ => show win1_0.index t (1 : Fin 2) * 2048 + 1 * k.val = k.val; rw [e1]; omega

/-- The weight block at any point is the whole weight array. -/
theorem weight_block_apply (c : Dev nD) (t : Fin cfg1.N) (k : Fin 2048) (q : Fin 4096) :
    (iblk1 V c 1 t : Vec Ideal S2048x4096 .bf16) (ix2 k q) = (V c main_v4 : S2048x4096.Idx → EReal) (ix2 k q) := by
  obtain ⟨-, -, e0, e1, -⟩ := block_index t
  unfold iblk1
  rw [View.read_apply]
  show (V c main_v4 : S2048x4096.Idx → EReal) _ = (V c main_v4 : S2048x4096.Idx → EReal) _
  congr 1
  funext a
  apply Fin.ext
  match a with
  | ⟨0, _⟩ => show win1_1.index t (0 : Fin 2) * 2048 + 1 * k.val = k.val; rw [e0]; omega
  | ⟨1, _⟩ => show win1_1.index t (1 : Fin 2) * 4096 + 1 * q.val = q.val; rw [e1]; omega

/-- The bias block at any point is the whole bias row. -/
theorem bias_block_apply (c : Dev nD) (t : Fin cfg1.N) (q : Fin 4096) :
    (iblk1 V c 2 t : Vec Ideal S1x4096 .f32) (ix2 (0 : Fin 1) q) = (V c main_v3 : S1x4096.Idx → EReal) (ix2 (0 : Fin 1) q) := by
  obtain ⟨-, -, -, -, e0, e1, -⟩ := block_index t
  unfold iblk1
  rw [View.read_apply]
  show (V c main_v3 : S1x4096.Idx → EReal) _ = (V c main_v3 : S1x4096.Idx → EReal) _
  congr 1
  funext a
  apply Fin.ext
  match a with
  | ⟨0, _⟩ => show win1_2.index t (0 : Fin 2) * 1 + 1 * (0 : Nat) = 0; rw [e0]
  | ⟨1, _⟩ => show win1_2.index t (1 : Fin 2) * 4096 + 1 * q.val = q.val; rw [e1]; omega

/-- Where entry (p, q) of the output block at point t sits in the output array: row 256·t + p, column q. -/
theorem out_row (t : Fin cfg1.N) (p : Fin 256) (q : Fin 4096) :
    ((((cfg1.win 3).blk t).view.emb (ix2 p q) : S8192x4096.Idx) 0).val = 256 * t.val + p.val := by
  obtain ⟨-, -, -, -, -, -, e0, -⟩ := block_index t
  show win1_3.index t (0 : Fin 2) * 256 + 1 * p.val = 256 * t.val + p.val
  rw [e0]; omega
theorem out_col (t : Fin cfg1.N) (p : Fin 256) (q : Fin 4096) :
    ((((cfg1.win 3).blk t).view.emb (ix2 p q) : S8192x4096.Idx) 1).val = q.val := by
  obtain ⟨-, -, -, -, -, -, -, e1⟩ := block_index t
  show win1_3.index t (1 : Fin 2) * 4096 + 1 * q.val = q.val
  rw [e1]; omega

/-- What point t writes back is block t of `scores`. -/
theorem flushed_eq (c : Dev nD) (t : Fin cfg1.N) :
    (dat1 V c).flushed 3 t = ((cfg1.win 3).blk t).view.read (Elt Ideal) (scores (V c main_arg0) (V c main_v4) (V c main_v3)) := by
  show (cfg1.win 3).cut (grid1.coords t) ((dat1 V c).after 3 t) = _
  rw [after1_3]
  unfold out1_3
  rw [View.canon_unit_zero zero_offsets]
  simp only [View.ld_unit_zero (S := S256x2048) zero_offsets, View.ld_unit_zero (S := S2048x4096) zero_offsets, View.ld_unit_zero (S := S1x4096) zero_offsets]
  refine funext fun (y : S256x4096.Idx) => ?_
  show k1_pay1 (F := Ideal) (iblk1 V c 0 t) (iblk1 V c 1 t) (iblk1 V c 2 t) y = scores (V c main_arg0) (V c main_v4) (V c main_v3) (((cfg1.win 3).blk t).view.emb y)
  rw [eq_ix2 y]
  have ht := point_lt t
  have hp : (y 0).val < 256 := (y 0).isLt
  refine (Body.logit_block_apply (iblk1 V c 0 t) (iblk1 V c 1 t) (iblk1 V c 2 t) (y 0) (y 1)).trans ?_
  refine ((scores_apply (V c main_arg0) (V c main_v4) (V c main_v3) _ ⟨256 * t.val + (y 0).val, by omega⟩ (y 1) (out_row t (y 0) (y 1)) (out_col t (y 0) (y 1))).trans ?_).symm
  refine (congrArg₂ (fun (a b : EReal) => a + b) (Finset.sum_congr rfl fun k _ => ?_) (bias_block_apply V c t (y 1))).symm
  exact congrArg₂ (fun (a b : EReal) => a * b) (token_block_apply V c t (y 0) k ⟨256 * t.val + (y 0).val, by omega⟩ rfl) (weight_block_apply V c t k (y 1))

/-- An index of the output array is in point t's block iff each coordinate is in the block's range on its axis. -/
theorem mem_block (t : Fin cfg1.N) (i : S8192x4096.Idx) :
    i ∈ ((cfg1.win 3).blk t).view.set ↔ ∀ a : Fin 2, win1_3.index t a * S256x4096.size a ≤ (i a).val ∧ (i a).val < win1_3.index t a * S256x4096.size a + S256x4096.size a := by
  show i ∈ ((View.whole main_v5).slice (win1_3.rect t)).set ↔ _
  rw [View.set_slice_whole, Rect.mem_set_unit]
  exact Iff.rfl

/-- Row r is in the block of point r / 256. -/
theorem cover (i : S8192x4096.Idx) : ∃ t : Fin cfg1.N, (cfg1.win 3).flush t = true ∧ i ∈ ((cfg1.win 3).blk t).view.set := by
  have hi0 : (i 0).val < 8192 := (i 0).isLt
  have hi1 : (i 1).val < 4096 := (i 1).isLt
  obtain ⟨t, ht⟩ : ∃ t : Fin cfg1.N, t.val = (i 0).val / 256 := ⟨⟨(i 0).val / 256, by rw [show cfg1.N = 32 from N_1]; omega⟩, rfl⟩
  obtain ⟨-, -, -, -, -, -, e0, e1⟩ := block_index t
  refine ⟨t, flush1_3 t, ?_⟩
  rw [mem_block]
  intro a
  match a with
  | ⟨0, _⟩ => show win1_3.index t (0 : Fin 2) * 256 ≤ (i 0).val ∧ (i 0).val < win1_3.index t (0 : Fin 2) * 256 + 256; rw [e0, ht]; omega
  | ⟨1, _⟩ => show win1_3.index t (1 : Fin 2) * 4096 ≤ (i 1).val ∧ (i 1).val < win1_3.index t (1 : Fin 2) * 4096 + 4096; rw [e1]; omega

/-- The output array after the region is `scores` of the operand arrays as the region found them. -/
theorem array_eq (c : Dev nD) : (dat1 V c).arrAt 3 cfg1.N = scores (V c main_arg0) (V c main_v4) (V c main_v3) :=
  (dat1 V c).arrAt_eq_of_cover 3 (scores (V c main_arg0) (V c main_v4) (V c main_v3)) (fun t _ => flushed_eq V c t) cover

end Cert.KernelIdeal.LogitRegion

end
-- ==== Proof.KernelValue.lean ====
/-
  The idealized kernel's result is the specification.

  The weight region finds the transposed normals and the signs in its operand arrays, so its output array is
  the combined weight W[d, n] = Σ_m normals[m, d] · signs[m, n]. The logit region finds the tokens untouched,
  that weight in the first region's output array, and the bias viewed as a row, so its output array is
  out[t, n] = (Σ_d x[t, d] · W[d, n]) + bias[n]. The run ends with the result buffer holding that array.
-/
import proofs.«172962_j13554916786432_2_alg».proof.Proof.NamedRun
import proofs.«172962_j13554916786432_2_alg».proof.Proof.HostStage
import proofs.«172962_j13554916786432_2_alg».proof.Proof.WeightArray
import proofs.«172962_j13554916786432_2_alg».proof.Proof.LogitArray
import proofs.«172962_j13554916786432_2_alg».proof.Proof.LogitSpec

noncomputable section

namespace Cert.KernelIdeal.Result

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- The weight region's output array is the combined weight of the normals and the signs. -/
theorem weight_array (c : Dev nD) :
    ((dat0 (V1 m ρ) c).arrAt 2 cfg0.N : S2048x4096.Idx → EReal)
      = TreeLogits.weight (m ((c : Thread nD τ).loc main_arg1)) (m ((c : Thread nD τ).loc main_arg3)) := by
  rw [WeightRegion.array_eq]
  funext j
  obtain ⟨d, n, rfl⟩ : ∃ (d : Fin 2048) (n : Fin 4096), j = ix2 d n := ⟨j 0, j 1, eq_ix2 j⟩
  rw [WeightRegion.product_apply _ _ (ix2 d n) d n rfl rfl, TreeLogits.weight_apply, Entry.signs_eq]
  refine Finset.sum_congr rfl fun k _ => ?_
  rw [Entry.normalsT_apply]

/-- What the logit region finds: the tokens as launched, -/
theorem entry_tokens (c : Dev nD) :
    (V2 m ρ c main_arg0 : S8192x2048.Idx → EReal) = (m ((c : Thread nD τ).loc main_arg0) : S8192x2048.Idx → EReal) :=
  (W2_of_ne m ρ c main_arg0 (by decide)).trans (by
    show StableHlo.after hostOps0 (W0 m ρ c) (Proc.devRef .tc main_arg0) = _
    dsimp only [hostOps0]
    after_results)
/-- the weight region's output array, -/
theorem entry_weight (c : Dev nD) :
    (V2 m ρ c main_v4 : S2048x4096.Idx → EReal) = ((dat0 (V1 m ρ) c).arrAt 2 cfg0.N : S2048x4096.Idx → EReal) :=
  W2_arr m ρ c 2
/-- and the bias row as the host operations left it. -/
theorem entry_biasRow (c : Dev nD) :
    (V2 m ρ c main_v3 : S1x4096.Idx → EReal) = (V1 m ρ c main_v3 : S1x4096.Idx → EReal) :=
  W2_of_ne m ρ c main_v3 (by decide)

/-- The logit region's output array is the logits of the four arguments. -/
theorem result_array (c : Dev nD) :
    ((dat1 (V2 m ρ) c).arrAt 3 cfg1.N : S8192x4096.Idx → EReal)
      = TreeLogits.logits (m ((c : Thread nD τ).loc main_arg0))
          (TreeLogits.weight (m ((c : Thread nD τ).loc main_arg1)) (m ((c : Thread nD τ).loc main_arg3)))
          (m ((c : Thread nD τ).loc main_arg2)) := by
  rw [LogitRegion.array_eq]
  funext j
  obtain ⟨r, n, rfl⟩ : ∃ (r : Fin 8192) (n : Fin 4096), j = ix2 r n := ⟨j 0, j 1, eq_ix2 j⟩
  rw [LogitRegion.scores_apply _ _ _ (ix2 r n) r n rfl rfl, TreeLogits.logits_apply, entry_tokens, entry_weight, weight_array,
    entry_biasRow, Entry.biasRow_apply]

/-- The run: the result buffer ends at the logits of the arguments, the arguments as launched. -/
theorem run : θ_run defs (onTc (τ := τ) (main (F := Ideal))) ⟨m, fun _ => 0, ρ⟩ (fun r => ∀ c : Dev nD,
      r.2.mem ((c.tc : Thread nD τ).loc main_v5)
        = TreeLogits.logits (m ((c.tc : Thread nD τ).loc main_arg0))
            (TreeLogits.weight (m ((c.tc : Thread nD τ).loc main_arg1)) (m ((c.tc : Thread nD τ).loc main_arg3)))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (result_array m ρ c), (h c).2⟩) (run_named m ρ)

end Cert.KernelIdeal.Result

end
-- ==== Proof.lean ====
/-
  Two programs for the logits of a balanced binary tree of 4095 internal nodes and 4096 leaves, equal over
  the extended reals.

  Leaf n's logit for token t is  bias[n] + Σ_m signs[m, n] · ⟨x[t, ·], normals[m, ·]⟩.  Both programs first
  collect the nodes into one weight matrix  W[d, n] = Σ_m normals[m, d] · signs[m, n]  and then form
  out[t, n] = (Σ_d x[t, d] · W[d, n]) + bias[n]  (`Cert.TreeLogits`).

  The kernel transposes the normals on the host, computes W in eight column blocks of 512 (each block one
  product of the whole transposed normals with 512 columns of the signs, into a zero accumulator), and then
  the logits in 32 row blocks of 256 tokens (each block one product with the whole W, into a zero accumulator,
  plus the bias row broadcast over the rows). Its changes of float format are the identity on the extended
  reals. The reference contracts the node axis of the two node-indexed arrays, contracts the feature axis of
  the tokens against the result, and adds the bias broadcast over the tokens. Index by index both are the
  same two finite sums over the contracted coordinate followed by the same addition; no rearrangement of a
  sum, no distributive law and no cancellation is used, so the finiteness of the inputs is not needed for the
  equality.

  The modules: LogitSpec (the two functions), ReferenceSide (the reference's result is `logits`), BodySums
  (each kernel body's stored block at an entry), HostStage (what the host operations leave for the first
  region), WeightArray and LogitArray (each region's blocks cover its output array, which ends holding one
  whole-array function), NamedRun (the run with the result buffer read at the end), KernelValue (the kernel's
  result is `logits`). The kernel is not rewritten by its idealization, so `preserves` has nothing to state.
-/
import proofs.«172962_j13554916786432_2_alg».proof.Defs
import proofs.«172962_j13554916786432_2_alg».proof.Proof.Gen.Kernel
import proofs.«172962_j13554916786432_2_alg».proof.Proof.Gen.Kernel.Skeleton
import proofs.«172962_j13554916786432_2_alg».proof.Proof.Gen.Kernel.Launch
import proofs.«172962_j13554916786432_2_alg».proof.Proof.Gen.Kernel.Points
import proofs.«172962_j13554916786432_2_alg».proof.Proof.Gen.Kernel.Frame
import proofs.«172962_j13554916786432_2_alg».proof.Proof.Gen.KernelIdeal
import proofs.«172962_j13554916786432_2_alg».proof.Proof.Gen.KernelIdeal.Skeleton
import proofs.«172962_j13554916786432_2_alg».proof.Proof.Gen.KernelIdeal.Launch
import proofs.«172962_j13554916786432_2_alg».proof.Proof.Gen.KernelIdeal.Points
import proofs.«172962_j13554916786432_2_alg».proof.Proof.Gen.KernelIdeal.Frame
import proofs.«172962_j13554916786432_2_alg».proof.Proof.Gen.ReferenceIdeal
import proofs.«172962_j13554916786432_2_alg».proof.Proof.Gen.ReferenceIdeal.Run
import proofs.«172962_j13554916786432_2_alg».proof.Proof.Gen.ReferenceIdeal.Read
import proofs.«172962_j13554916786432_2_alg».proof.Proof.Gen.Pre_finite_inputs
import proofs.«172962_j13554916786432_2_alg».proof.Proof.LogitSpec
import proofs.«172962_j13554916786432_2_alg».proof.Proof.ReferenceSide
import proofs.«172962_j13554916786432_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- Both runs end with the result at `logits` of the arguments, which agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.reference_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
